-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x256 : Shape := ⟨3, ![64, 256, 256]⟩
abbrev S256x65536 : Shape := ⟨2, ![256, 65536]⟩
abbrev S256 : Shape := ⟨1, ![256]⟩
abbrev S1105888 : Shape := ⟨1, ![1105888]⟩
abbrev S_ : Shape := ⟨0, ![]⟩

class Facts : Prop where
  bcast_S_S64x256x256 : S_.BroadcastsInDim S64x256x256 (![] : Fin 0 → Fin S64x256x256.rank)
  reducesTo_S64x256x256_S_d0_1_2 : S64x256x256.ReducesTo [0, 1, 2] S_
  h_S_ : 0 < S_.numel
  bcast_S_S256x65536 : S_.BroadcastsInDim S256x65536 (![] : Fin 0 → Fin S256x65536.rank)
  reducesTo_S256x65536_S_d0_1 : S256x65536.ReducesTo [0, 1] S_
  bcast_S_S256 : S_.BroadcastsInDim S256 (![] : Fin 0 → Fin S256.rank)
  reducesTo_S256_S_d0 : S256.ReducesTo [0] S_
  bcast_S_S1105888 : S_.BroadcastsInDim S1105888 (![] : Fin 0 → Fin S1105888.rank)
  reducesTo_S1105888_S_d0 : S1105888.ReducesTo [0] S_

variable [Facts]

def fn_part1 {F : FTy → Type} [FloatOps F] (main_v13 : IVec S_ 1) (main_v16 : IVec S1105888 1) : IVec S_ 1 :=
  let main_c_5 : IVec S_ 1 := constantI S_ 1 1#1
  let main_v17 : IVec S_ 1 := (fun x v => Host.reduce IntOp.andi x v reducesTo_S1105888_S_d0 h_S_) main_v16 main_c_5
  let main_v18 : IVec S_ 1 := andi main_v13 main_v17
  main_v18

def fn {F : FTy → Type} [FloatOps F] (main_arg0 : FVec F S64x256x256 .f32) (main_arg1 : FVec F S256x65536 .f32) (main_arg2 : FVec F S256 .f32) (main_arg3 : IVec S1105888 32) (main_arg4 : IVec S1105888 32) (main_arg5 : FVec F S1105888 .f32) : IVec S_ 1 :=
  let main_v0 : FVec F S64x256x256 .f32 := Host.absf main_arg0
  let main_cst : FVec F S_ .f32 := constant S_ .f32 0x7F800000#32
  let main_v1 : FVec F S64x256x256 .f32 := broadcastInDim S64x256x256 ![] bcast_S_S64x256x256 main_cst
  let main_v2 : IVec S64x256x256 1 := cmpf .olt main_v0 main_v1
  let main_c : IVec S_ 1 := constantI S_ 1 1#1
  let main_v3 : IVec S_ 1 := (fun x v => Host.reduce IntOp.andi x v reducesTo_S64x256x256_S_d0_1_2 h_S_) main_v2 main_c
  let main_v4 : FVec F S256x65536 .f32 := Host.absf main_arg1
  let main_cst_0 : FVec F S_ .f32 := constant S_ .f32 0x7F800000#32
  let main_v5 : FVec F S256x65536 .f32 := broadcastInDim S256x65536 ![] bcast_S_S256x65536 main_cst_0
  let main_v6 : IVec S256x65536 1 := cmpf .olt main_v4 main_v5
  let main_c_1 : IVec S_ 1 := constantI S_ 1 1#1
  let main_v7 : IVec S_ 1 := (fun x v => Host.reduce IntOp.andi x v reducesTo_S256x65536_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1105888 .f32 := Host.absf main_arg5
  let main_cst_4 : FVec F S_ .f32 := constant S_ .f32 0x7F800000#32
  let main_v15 : FVec F S1105888 .f32 := broadcastInDim S1105888 ![] bcast_S_S1105888 main_cst_4
  let main_v16 : IVec S1105888 1 := cmpf .olt main_v14 main_v15
  fn_part1 (F := F) main_v13 main_v16
-- ==== Kernel.lean ====
abbrev S64x256x256 : Shape := ⟨3, ![64, 256, 256]⟩
abbrev S256x65536 : Shape := ⟨2, ![256, 65536]⟩
abbrev S256 : Shape := ⟨1, ![256]⟩
abbrev S1105888 : Shape := ⟨1, ![1105888]⟩
abbrev S64x65536 : Shape := ⟨2, ![64, 65536]⟩
abbrev S_ : Shape := ⟨0, ![]⟩
abbrev S1105888x1 : Shape := ⟨2, ![1105888, 1]⟩
abbrev S64x1105888 : Shape := ⟨2, ![64, 1105888]⟩
abbrev S1x1105888 : Shape := ⟨2, ![1, 1105888]⟩
abbrev S64x256 : Shape := ⟨2, ![64, 256]⟩
abbrev S64x4096 : Shape := ⟨2, ![64, 4096]⟩
abbrev S256x4096 : Shape := ⟨2, ![256, 4096]⟩
abbrev S1x256 : Shape := ⟨2, ![1, 256]⟩

abbrev nBuf : Space → Nat
  | .hbm => 34
  | .vmem => 6
  | .smem => 0
  | _ => 0

abbrev bufTy : (tb : Table) → Fin (tcTables nBuf tb) → BufTy
  | .hbm, ⟨0, _⟩ => ⟨S64x256x256, .f32⟩
  | .hbm, ⟨1, _⟩ => ⟨S256x65536, .f32⟩
  | .hbm, ⟨2, _⟩ => ⟨S256, .f32⟩
  | .hbm, ⟨3, _⟩ => ⟨S1105888, .i32⟩
  | .hbm, ⟨4, _⟩ => ⟨S1105888, .i32⟩
  | .hbm, ⟨5, _⟩ => ⟨S1105888, .f32⟩
  | .hbm, ⟨6, _⟩ => ⟨S64x65536, .f32⟩
  | .hbm, ⟨7, _⟩ => ⟨S_, .i32⟩
  | .hbm, ⟨8, _⟩ => ⟨S1105888, .i32⟩
  | .hbm, ⟨9, _⟩ => ⟨S1105888, .i1⟩
  | .hbm, ⟨10, _⟩ => ⟨S_, .i32⟩
  | .hbm, ⟨11, _⟩ => ⟨S1105888, .i32⟩
  | .hbm, ⟨12, _⟩ => ⟨S1105888, .i32⟩
  | .hbm, ⟨13, _⟩ => ⟨S1105888, .i32⟩
  | .hbm, ⟨14, _⟩ => ⟨S1105888x1, .i32⟩
  | .hbm, ⟨15, _⟩ => ⟨S64x1105888, .f32⟩
  | .hbm, ⟨16, _⟩ => ⟨S1x1105888, .f32⟩
  | .hbm, ⟨17, _⟩ => ⟨S64x1105888, .f32⟩
  | .hbm, ⟨18, _⟩ => ⟨S64x1105888, .f32⟩
  | .hbm, ⟨19, _⟩ => ⟨S_, .f32⟩
  | .hbm, ⟨20, _⟩ => ⟨S64x65536, .f32⟩
  | .hbm, ⟨21, _⟩ => ⟨S_, .i32⟩
  | .hbm, ⟨22, _⟩ => ⟨S1105888, .i32⟩
  | .hbm, ⟨23, _⟩ => ⟨S1105888, .i1⟩
  | .hbm, ⟨24, _⟩ => ⟨S_, .i32⟩
  | .hbm, ⟨25, _⟩ => ⟨S1105888, .i32⟩
  | .hbm, ⟨26, _⟩ => ⟨S1105888, .i32⟩
  | .hbm, ⟨27, _⟩ => ⟨S1105888, .i32⟩
  | .hbm, ⟨28, _⟩ => ⟨S1105888x1, .i32⟩
  | .hbm, ⟨29, _⟩ => ⟨S64x65536, .f32⟩
  | .hbm, ⟨30, _⟩ => ⟨S64x256, .f32⟩
  | .hbm, ⟨31, _⟩ => ⟨S1x256, .f32⟩
  | .hbm, ⟨32, _⟩ => ⟨S64x256, .f32⟩
  | .hbm, ⟨33, _⟩ => ⟨S64x256, .f32⟩
  | .local _ .vmem, ⟨0, _⟩ => ⟨S64x4096, .f32⟩
  | .local _ .vmem, ⟨1, _⟩ => ⟨S64x4096, .f32⟩
  | .local _ .vmem, ⟨2, _⟩ => ⟨S256x4096, .f32⟩
  | .local _ .vmem, ⟨3, _⟩ => ⟨S256x4096, .f32⟩
  | .local _ .vmem, ⟨4, _⟩ => ⟨S64x256, .f32⟩
  | .local _ .vmem, ⟨5, _⟩ => ⟨S64x256, .f32⟩
  | _, _ => ⟨S64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S64x256x256_S64x65536 : S64x256x256.ShapeCasts S64x65536
  bcast_S_S1105888 : S_.BroadcastsInDim S1105888 (![] : Fin 0 → Fin S1105888.rank)
  bcast_S1105888_S1105888x1_0 : S1105888.BroadcastsInDim S1105888x1 (![0] : Fin 1 → Fin S1105888x1.rank)
  bcast_S1105888_S1x1105888_1 : S1105888.BroadcastsInDim S1x1105888 (![1] : Fin 1 → Fin S1x1105888.rank)
  bcast_S1x1105888_S64x1105888_0_1 : S1x1105888.BroadcastsInDim S64x1105888 (![0, 1] : Fin 2 → Fin S64x1105888.rank)
  bcast_S_S64x65536 : S_.BroadcastsInDim S64x65536 (![] : Fin 0 → Fin S64x65536.rank)
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  gather_S64x65536_S1105888x1_S64x1105888_0_1_n_n_1_1_641_wf : GatherDims.WF S64x65536 S1105888x1 S64x1105888 [0] [1] [] [1] [] 1 ![64, 1]
  scatter_S64x65536_S1105888x1_S64x1105888_0_1_1_1_wf : ScatterDims.WF S64x65536 S1105888x1 S64x1105888 [0] [1] [1] 1
  dot_S64x4096_S256x4096_S64x256_1_1_0_0_n_n_wf : DotDims.WF S64x4096 S256x4096 S64x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x65536.size a
  hwx0_0 : ∀ i : grid0.Coords, EltTy.bits .f32 = 32 ∨ (Rect.block (s := S64x65536) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x65536.size a
  hwx0_1 : ∀ i : grid0.Coords, EltTy.bits .f32 = 32 ∨ (Rect.block (s := S256x65536) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)

variable [Facts₀]

def gather_S64x65536_S1105888x1_S64x1105888_0_1_n_n_1_1_641 : GatherDims S64x65536 S1105888x1 S64x1105888 where
  offsetDims := [0]
  collapsedSliceDims := [1]
  operandBatchingDims := []
  startIndicesBatchingDims := []
  startIndexMap := [1]
  indexVectorDim := 1
  sliceSizes := ![64, 1]
  wf := gather_S64x65536_S1105888x1_S64x1105888_0_1_n_n_1_1_641_wf
def scatter_S64x65536_S1105888x1_S64x1105888_0_1_1_1 : ScatterDims S64x65536 S1105888x1 S64x1105888 where
  updateWindowDims := [0]
  insertedWindowDims := [1]
  scatterDimsToOperandDims := [1]
  indexVectorDim := 1
  wf := scatter_S64x65536_S1105888x1_S64x1105888_0_1_1_1_wf
def dot_S64x4096_S256x4096_S64x256_1_1_0_0_n_n : DotDims S64x4096 S256x4096 S64x256 where
  lhsContracting := [1]
  rhsContracting := [1]
  lhsNonContracting := [0]
  rhsNonContracting := [0]
  lhsBatch := []
  rhsBatch := []
  wf := dot_S64x4096_S256x4096_S64x256_1_1_0_0_n_n_wf

abbrev win0_0 : Pipeline.Window sig grid0 :=
  Pipeline.Window.ofSpec (Memref.whole main_v18) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x256x256 : Shape := ⟨3, ![64, 256, 256]⟩
abbrev S256x65536 : Shape := ⟨2, ![256, 65536]⟩
abbrev S256 : Shape := ⟨1, ![256]⟩
abbrev S1105888 : Shape := ⟨1, ![1105888]⟩
abbrev S64x65536 : Shape := ⟨2, ![64, 65536]⟩
abbrev S_ : Shape := ⟨0, ![]⟩
abbrev S1105888x1 : Shape := ⟨2, ![1105888, 1]⟩
abbrev S64x1105888 : Shape := ⟨2, ![64, 1105888]⟩
abbrev S1x1105888 : Shape := ⟨2, ![1, 1105888]⟩
abbrev S65536x256 : Shape := ⟨2, ![65536, 256]⟩
abbrev S64x256 : Shape := ⟨2, ![64, 256]⟩
abbrev S1x256 : Shape := ⟨2, ![1, 256]⟩

abbrev nBuf : Space → Nat
  | .hbm => 35
  | .vmem => 0
  | .smem => 0
  | _ => 0

abbrev bufTy : (tb : Table) → Fin (tcTables nBuf tb) → BufTy
  | .hbm, ⟨0, _⟩ => ⟨S64x256x256, .f32⟩
  | .hbm, ⟨1, _⟩ => ⟨S256x65536, .f32⟩
  | .hbm, ⟨2, _⟩ => ⟨S256, .f32⟩
  | .hbm, ⟨3, _⟩ => ⟨S1105888, .i32⟩
  | .hbm, ⟨4, _⟩ => ⟨S1105888, .i32⟩
  | .hbm, ⟨5, _⟩ => ⟨S1105888, .f32⟩
  | .hbm, ⟨6, _⟩ => ⟨S64x65536, .f32⟩
  | .hbm, ⟨7, _⟩ => ⟨S_, .i32⟩
  | .hbm, ⟨8, _⟩ => ⟨S1105888, .i32⟩
  | .hbm, ⟨9, _⟩ => ⟨S1105888, .i1⟩
  | .hbm, ⟨10, _⟩ => ⟨S_, .i32⟩
  | .hbm, ⟨11, _⟩ => ⟨S1105888, .i32⟩
  | .hbm, ⟨12, _⟩ => ⟨S1105888, .i32⟩
  | .hbm, ⟨13, _⟩ => ⟨S1105888, .i32⟩
  | .hbm, ⟨14, _⟩ => ⟨S1105888x1, .i32⟩
  | .hbm, ⟨15, _⟩ => ⟨S64x1105888, .f32⟩
  | .hbm, ⟨16, _⟩ => ⟨S1x1105888, .f32⟩
  | .hbm, ⟨17, _⟩ => ⟨S64x1105888, .f32⟩
  | .hbm, ⟨18, _⟩ => ⟨S64x1105888, .f32⟩
  | .hbm, ⟨19, _⟩ => ⟨S_, .f32⟩
  | .hbm, ⟨20, _⟩ => ⟨S64x65536, .f32⟩
  | .hbm, ⟨21, _⟩ => ⟨S_, .i32⟩
  | .hbm, ⟨22, _⟩ => ⟨S1105888, .i32⟩
  | .hbm, ⟨23, _⟩ => ⟨S1105888, .i1⟩
  | .hbm, ⟨24, _⟩ => ⟨S_, .i32⟩
  | .hbm, ⟨25, _⟩ => ⟨S1105888, .i32⟩
  | .hbm, ⟨26, _⟩ => ⟨S1105888, .i32⟩
  | .hbm, ⟨27, _⟩ => ⟨S1105888, .i32⟩
  | .hbm, ⟨28, _⟩ => ⟨S1105888x1, .i32⟩
  | .hbm, ⟨29, _⟩ => ⟨S64x65536, .f32⟩
  | .hbm, ⟨30, _⟩ => ⟨S65536x256, .f32⟩
  | .hbm, ⟨31, _⟩ => ⟨S64x256, .f32⟩
  | .hbm, ⟨32, _⟩ => ⟨S1x256, .f32⟩
  | .hbm, ⟨33, _⟩ => ⟨S64x256, .f32⟩
  | .hbm, ⟨34, _⟩ => ⟨S64x256, .f32⟩
  | _, _ => ⟨S64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  shapeCasts_S64x256x256_S64x65536 : S64x256x256.ShapeCasts S64x65536
  bcast_S_S1105888 : S_.BroadcastsInDim S1105888 (![] : Fin 0 → Fin S1105888.rank)
  bcast_S1105888_S1105888x1_0 : S1105888.BroadcastsInDim S1105888x1 (![0] : Fin 1 → Fin S1105888x1.rank)
  bcast_S1105888_S1x1105888_1 : S1105888.BroadcastsInDim S1x1105888 (![1] : Fin 1 → Fin S1x1105888.rank)
  bcast_S1x1105888_S64x1105888_0_1 : S1x1105888.BroadcastsInDim S64x1105888 (![0, 1] : Fin 2 → Fin S64x1105888.rank)
  bcast_S_S64x65536 : S_.BroadcastsInDim S64x65536 (![] : Fin 0 → Fin S64x65536.rank)
  transposes_S256x65536_S65536x256_1_0 : S256x65536.Transposes [1, 0] S65536x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  gather_S64x65536_S1105888x1_S64x1105888_0_1_n_n_1_1_641_wf : GatherDims.WF S64x65536 S1105888x1 S64x1105888 [0] [1] [] [1] [] 1 ![64, 1]
  scatter_S64x65536_S1105888x1_S64x1105888_0_1_1_1_wf : ScatterDims.WF S64x65536 S1105888x1 S64x1105888 [0] [1] [1] 1
  dot_S64x65536_S65536x256_S64x256_1_0_0_1_n_n_wf : DotDims.WF S64x65536 S65536x256 S64x256 [1] [0] [0] [1] [] []

variable [Facts₀]

def gather_S64x65536_S1105888x1_S64x1105888_0_1_n_n_1_1_641 : GatherDims S64x65536 S1105888x1 S64x1105888 where
  offsetDims := [0]
  collapsedSliceDims := [1]
  operandBatchingDims := []
  startIndicesBatchingDims := []
  startIndexMap := [1]
  indexVectorDim := 1
  sliceSizes := ![64, 1]
  wf := gather_S64x65536_S1105888x1_S64x1105888_0_1_n_n_1_1_641_wf
def scatter_S64x65536_S1105888x1_S64x1105888_0_1_1_1 : ScatterDims S64x65536 S1105888x1 S64x1105888 where
  updateWindowDims := [0]
  insertedWindowDims := [1]
  scatterDimsToOperandDims := [1]
  indexVectorDim := 1
  wf := scatter_S64x65536_S1105888x1_S64x1105888_0_1_1_1_wf
def dot_S64x65536_S65536x256_S64x256_1_0_0_1_n_n : DotDims S64x65536 S65536x256 S64x256 where
  lhsContracting := [1]
  rhsContracting := [0]
  lhsNonContracting := [0]
  rhsNonContracting := [1]
  lhsBatch := []
  rhsBatch := []
  wf := dot_S64x65536_S65536x256_S64x256_1_0_0_1_n_n_wf

class Facts : Prop extends Facts₀ where

variable [Facts]
-- ==== Proof.TileDot.lean ====
/-
  The body's arithmetic at one entry, over the extended reals.

  One grid point adds to the accumulator the product of a [64,4096] tile `x0` of the left operand with a
  [256,4096] tile `x1` of the right operand, both contracted along their second axis (the right operand is used
  transposed). Rounding the tiles to a narrower float format is the identity on the extended reals, and a matrix
  product accumulated into the zero block is the plain sum of products. So entry (p, q) of the result is the
  accumulator's entry plus the sum over k below 4096 of x0(p, k) · x1(q, k); and the zero block the first point
  stores is 0 at every entry.
-/
import proofs.«161908_j4904852652371_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.TileDot

open Cert.KernelIdeal Cert.KernelIdeal.Gen

/-- The tile product's dimension numbers: both operands contracted along axis 1, rows of the left operand and
    rows of the right operand kept. -/
abbrev tileDims : DotDims S64x4096 S256x4096 S64x256 := dot_S64x4096_S256x4096_S64x256_1_1_0_0_n_n

/-- The contraction index is one coordinate below 4096. -/
abbrev contr : tileDims.contr.Idx ≃ Fin 4096 := contrEquiv1 tileDims 4096 rfl rfl

/-- The left operand's row is the output's row. -/
theorem lhs_row (i : S64x256.Idx) (κ : tileDims.contr.Idx) : (tileDims.lhsIdx i κ 0).val = (i 0).val := by
  unfold DotDims.lhsIdx
  rw [dif_neg (show ¬(0 : Fin S64x4096.rank) ∈ tileDims.lhsBatch by decide),
    dif_pos (show (0 : Fin S64x4096.rank) ∈ tileDims.lhsNonContracting by decide)]
  rfl

/-- The left operand's column is the contraction coordinate. -/
theorem lhs_col (i : S64x256.Idx) (κ : tileDims.contr.Idx) : (tileDims.lhsIdx i κ 1).val = (κ ⟨0, by decide⟩).val :=
  tileDims.lhsIdx_val_of_single rfl i κ

/-- The right operand's row is the output's column. -/
theorem rhs_row (i : S64x256.Idx) (κ : tileDims.contr.Idx) : (tileDims.rhsIdx i κ 0).val = (i 1).val := by
  unfold DotDims.rhsIdx
  rw [dif_neg (show ¬(0 : Fin S256x4096.rank) ∈ tileDims.rhsBatch by decide),
    dif_pos (show (0 : Fin S256x4096.rank) ∈ tileDims.rhsNonContracting by decide)]
  rfl

/-- The right operand's column is the contraction coordinate. -/
theorem rhs_col (i : S64x256.Idx) (κ : tileDims.contr.Idx) : (tileDims.rhsIdx i κ 1).val = (κ ⟨0, by decide⟩).val :=
  tileDims.rhsIdx_val_of_single rfl i κ

/-- At output entry (p, q) and contraction coordinate k the left operand is read at (p, k). -/
theorem lhs_at (p : Fin 64) (q : Fin 256) (k : Fin 4096) :
    tileDims.lhsIdx (ix2 p q) (contr.symm k) = ix2 p k :=
  funext fun a => Fin.ext (by
    match a with
    | ⟨0, _⟩ => exact lhs_row _ _
    | ⟨1, _⟩ => exact (lhs_col _ _).trans (contrEquiv1_symm_val tileDims 4096 rfl rfl k))

/-- At output entry (p, q) and contraction coordinate k the right operand is read at (q, k). -/
theorem rhs_at (p : Fin 64) (q : Fin 256) (k : Fin 4096) :
    tileDims.rhsIdx (ix2 p q) (contr.symm k) = ix2 q k :=
  funext fun a => Fin.ext (by
    match a with
    | ⟨0, _⟩ => exact rhs_row _ _
    | ⟨1, _⟩ => exact (rhs_col _ _).trans (contrEquiv1_symm_val tileDims 4096 rfl rfl k))

/-- One point's arithmetic at entry (p, q): the accumulator there plus the sum over k of x0(p, k) · x1(q, k). -/
theorem step_apply (x0 : Vec Ideal S64x4096 .f32) (x1 : Vec Ideal S256x4096 .f32) (xs : Vec Ideal S64x256 .f32)
    (p : Fin 64) (q : Fin 256) :
    k0_pay2 (F := Ideal) x0 x1 xs (ix2 p q) = xs (ix2 p q) + ∑ k : Fin 4096, x0 (ix2 p k) * x1 (ix2 q k) := by
  unfold k0_pay2
  simp only [shapeCast_self]
  show xs (ix2 p q) + FloatOps.matmul (F := Ideal) tileDims none (truncf (F := Ideal) .bf16 x0 bitsLt_bf16_f32)
    (truncf (F := Ideal) .bf16 x1 bitsLt_bf16_f32) (constant (F := Ideal) S64x256 .f32 0x00000000#32) (ix2 p q) = _
  rw [Ideal.matmul_constant_zero_apply, ← Equiv.sum_comp contr.symm]
  refine congrArg _ (Finset.sum_congr rfl fun k _ => ?_)
  rw [lhs_at, rhs_at]
  rfl

/-- The zero block the first point stores is 0 at every entry. -/
theorem zero_apply (i : S64x256.Idx) : k0_pay1 (F := Ideal) i = 0 := by
  unfold k0_pay1
  simp only [shapeCast_self]
  show Ideal.ofBits .f32 0x00000000#32 = 0
  exact Ideal.ofBits_zero_f32

end Cert.KernelIdeal.TileDot

end
-- ==== Proof.CaseValues.lean ====
/-
  What one grid point of the K-tiled matmul leaves behind, as values.

  The body keeps a running [64,256] accumulator in a scratch buffer carried from point to point. At the first
  point it stores the zero block there and reads it back; at every point it then adds, to what the accumulator
  holds, the product of the point's [64,4096] tile of the left operand with the point's [256,4096] tile of the
  right operand (contracted along the 4096 axis), stores the sum back, and copies the accumulator to the output
  block. Every load and store is through the whole buffer, so a load after a store reads the stored vector.

  Hence, for any float instance: after the first point both the accumulator and the output block hold
  `step x0 x1 zero`, after any later point `step x0 x1 acc` of the accumulator `acc` left by the point before,
  where `step` is the body's one arithmetic payload (the accumulator plus the tile product) and `zero` the
  stored zero block.
-/
import proofs.«161908_j4904852652371_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Idealize.ShloMosaic.View

variable {Val : EltTy → Type} {S : Shape} {e : EltTy}

/-- A load through the whole-buffer rectangle, after a list of stores whose NEWEST is through the whole-buffer
    rectangle, reads the newest store's vector, whatever the older stores were. -/
theorem readCov_cons_whole [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

namespace Cert.KernelIdeal.CaseValues

open Cert.KernelIdeal Cert.KernelIdeal.Gen

variable {F : FTy → Type} [FloatOps F]

/-- The zero offsets of a whole-buffer access, as a constant function. -/
theorem zero_offsets : (![0, 0] : Fin 2 → Nat) = fun _ => 0 := funext fun a => by fin_cases a <;> rfl

/-- A later point (not the first): the accumulator ends at the old accumulator plus the tile product. -/
theorem acc_later (c : Dev nD) (i : grid0.Coords) (a1 : Memref sig .tc .vmem S64x4096 .f32) (h1 : a1.IsWhole)
    (a2 : Memref sig .tc .vmem S256x4096 .f32) (h2 : a2.IsWhole) (a3 : Memref sig .tc .vmem S64x256 .f32) (h3 : a3.IsWhole)
    (a4 : Memref sig .tc .vmem S64x256 .f32) (h4 : a4.IsWhole) (hc : ¬cond0_0 i)
    (x0 : Vec F S64x4096 .f32) (x1 : Vec F S256x4096 .f32) (xs0 : Vec F S64x256 .f32) :
    sout0_B_0 c i a1 h1 a2 h2 a3 h3 a4 h4 hc x0 x1 xs0 = k0_pay2 x0 x1 xs0 := by
  unfold sout0_B_0
  rw [View.read_writes_eq_canon _ _ _ (scover0_B_0 c i a1 h1 a2 h2 a3 h3 a4 h4 hc x0 x1 xs0)]
  unfold kernelRun0_B
  dsimp only
  sl_unfold_words
  rw [View.canon_unit_zero zero_offsets]
  simp only [View.readAt_eq_ld, h1.read_unread, h2.read_unread, h4.read_unread,
    View.ld_unit_zero (S := S64x4096) zero_offsets, View.ld_unit_zero (S := S256x4096) zero_offsets,
    View.ld_unit_zero (S := S64x256) zero_offsets]

/-- A later point: the output block is a copy of the accumulator just stored. -/
theorem out_later (c : Dev nD) (i : grid0.Coords) (a1 : Memref sig .tc .vmem S64x4096 .f32) (h1 : a1.IsWhole)
    (a2 : Memref sig .tc .vmem S256x4096 .f32) (h2 : a2.IsWhole) (a3 : Memref sig .tc .vmem S64x256 .f32) (h3 : a3.IsWhole)
    (a4 : Memref sig .tc .vmem S64x256 .f32) (h4 : a4.IsWhole) (hc : ¬cond0_0 i)
    (x0 : Vec F S64x4096 .f32) (x1 : Vec F S256x4096 .f32) (xs0 : Vec F S64x256 .f32) :
    out0_B_2 c i a1 h1 a2 h2 a3 h3 a4 h4 hc x0 x1 xs0 = k0_pay2 x0 x1 xs0 := by
  unfold out0_B_2
  rw [View.read_writes_eq_canon _ _ _ (cover0_B_2 c i a1 h1 a2 h2 a3 h3 a4 h4 hc x0 x1 xs0)]
  unfold kernelRun0_B
  dsimp only
  sl_unfold_words
  rw [View.canon_unit_zero (S := S64x256) zero_offsets, View.readCov_cons_whole (S := S64x256) _ zero_offsets]
  simp only [View.readAt_eq_ld, h1.read_unread, h2.read_unread, h4.read_unread,
    View.ld_unit_zero (S := S64x4096) zero_offsets, View.ld_unit_zero (S := S256x4096) zero_offsets,
    View.ld_unit_zero (S := S64x256) zero_offsets]

/-- The first point: the accumulator is zeroed, read back, and ends at zero plus the tile product. -/
theorem acc_first (c : Dev nD) (i : grid0.Coords) (a1 : Memref sig .tc .vmem S64x4096 .f32) (h1 : a1.IsWhole)
    (a2 : Memref sig .tc .vmem S256x4096 .f32) (h2 : a2.IsWhole) (a3 : Memref sig .tc .vmem S64x256 .f32) (h3 : a3.IsWhole)
    (a4 : Memref sig .tc .vmem S64x256 .f32) (h4 : a4.IsWhole) (hc : cond0_0 i)
    (x0 : Vec F S64x4096 .f32) (x1 : Vec F S256x4096 .f32) :
    sout0_A_0 c i a1 h1 a2 h2 a3 h3 a4 h4 hc x0 x1 = k0_pay2 x0 x1 k0_pay1 := by
  unfold sout0_A_0
  rw [View.read_writes_eq_canon _ _ _ (scover0_A_0 c i a1 h1 a2 h2 a3 h3 a4 h4 hc x0 x1)]
  unfold kernelRun0_A
  dsimp only
  sl_unfold_words
  rw [View.canon_cons_unit_zero (S := S64x256) zero_offsets, View.readCov_cons_whole (S := S64x256) _ zero_offsets]
  simp only [View.readAt_eq_ld, h1.read_unread, h2.read_unread,
    View.ld_unit_zero (S := S64x4096) zero_offsets, View.ld_unit_zero (S := S256x4096) zero_offsets]

/-- The first point: the output block is a copy of that accumulator. -/
theorem out_first (c : Dev nD) (i : grid0.Coords) (a1 : Memref sig .tc .vmem S64x4096 .f32) (h1 : a1.IsWhole)
    (a2 : Memref sig .tc .vmem S256x4096 .f32) (h2 : a2.IsWhole) (a3 : Memref sig .tc .vmem S64x256 .f32) (h3 : a3.IsWhole)
    (a4 : Memref sig .tc .vmem S64x256 .f32) (h4 : a4.IsWhole) (hc : cond0_0 i)
    (x0 : Vec F S64x4096 .f32) (x1 : Vec F S256x4096 .f32) :
    out0_A_2 c i a1 h1 a2 h2 a3 h3 a4 h4 hc x0 x1 = k0_pay2 x0 x1 k0_pay1 := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero (S := S64x256) zero_offsets, View.readCov_cons_whole (S := S64x256) _ zero_offsets,
    View.readCov_cons_whole (S := S64x256) _ zero_offsets]
  simp only [View.readAt_eq_ld, h1.read_unread, h2.read_unread,
    View.ld_unit_zero (S := S64x4096) zero_offsets, View.ld_unit_zero (S := S256x4096) zero_offsets]

end Cert.KernelIdeal.CaseValues

end
-- ==== Proof.Chain.lean ====
/-
  The accumulator, point by point.

  Over any two families of tiles (a left [64,4096] tile and a right [256,4096] tile per point), `accOf l r n` is what
  the carried accumulator holds after grid point `n`: at the first point the body's step applied to the point's two
  tiles and the zero block, afterwards the step applied to the point's tiles and the accumulator of the point before.
  After every point the output block is a copy of the accumulator, so what the run records for the point — the pair
  (output block, accumulator) — is (acc n, acc n), where `acc` is `accOf` at the blocks the two input windows show
  at each point. By induction on the point.
-/
import proofs.«161908_j4904852652371_1_alg».proof.Proof.CaseValues

noncomputable section

open Idealize.ShloMosaic Idealize.ShloMosaic.TcCoe Idealize.SL.Sem

namespace Cert.KernelIdeal.Chain

open Cert.KernelIdeal Cert.KernelIdeal.Gen Cert.KernelIdeal.CaseValues

variable {F : FTy → Type} [FloatOps F]

/-- The accumulator after point `n`, over the tiles `l` and `r` of the points. -/
def accOf {N : ℕ} (l : (n : ℕ) → n < N → Vec F S64x4096 .f32) (r : (n : ℕ) → n < N → Vec F S256x4096 .f32) :
    (n : ℕ) → n < N → Vec F S64x256 .f32
  | 0, h => k0_pay2 (l 0 h) (r 0 h) k0_pay1
  | n + 1, h => k0_pay2 (l (n + 1) h) (r (n + 1) h) (accOf l r n (Nat.lt_of_succ_lt h))

theorem accOf_zero {N : ℕ} (l : (n : ℕ) → n < N → Vec F S64x4096 .f32) (r : (n : ℕ) → n < N → Vec F S256x4096 .f32)
    (h : 0 < N) : accOf l r 0 h = k0_pay2 (l 0 h) (r 0 h) k0_pay1 := rfl

theorem accOf_succ {N : ℕ} (l : (n : ℕ) → n < N → Vec F S64x4096 .f32) (r : (n : ℕ) → n < N → Vec F S256x4096 .f32)
    (n : ℕ) (h : n + 1 < N) :
    accOf l r (n + 1) h = k0_pay2 (l (n + 1) h) (r (n + 1) h) (accOf l r n (Nat.lt_of_succ_lt h)) := rfl

variable (m : (ℓ : Loc nD τ sig) → Buf (Elt F) ℓ)

/-- The left operand's tile at point `t`: the block its window shows there. -/
def lhsTile (c : Dev nD) (t : Fin cfg0.N) : Vec F S64x4096 .f32 := iblk m c 0 t
/-- The right operand's tile at point `t`. -/
def rhsTile (c : Dev nD) (t : Fin cfg0.N) : Vec F S256x4096 .f32 := iblk m c 1 t

/-- The accumulator after point `n` of the run. -/
def acc (c : Dev nD) (n : ℕ) (h : n < cfg0.N) : Vec F S64x256 .f32 :=
  accOf (fun n h => lhsTile m c ⟨n, h⟩) (fun n h => rhsTile m c ⟨n, h⟩) n h

theorem acc_zero (c : Dev nD) (h : 0 < cfg0.N) :
    acc m c 0 h = k0_pay2 (lhsTile m c ⟨0, h⟩) (rhsTile m c ⟨0, h⟩) k0_pay1 := rfl

theorem acc_succ (c : Dev nD) (n : ℕ) (h : n + 1 < cfg0.N) :
    acc m c (n + 1) h = k0_pay2 (lhsTile m c ⟨n + 1, h⟩) (rhsTile m c ⟨n + 1, h⟩) (acc m c n (Nat.lt_of_succ_lt h)) := rfl

/-- The block the left window shows at a point is that point's left tile. -/
theorem lhsTile_eq (c : Dev nD) (t : Fin cfg0.N) : iblk m c 0 t = lhsTile m c t := rfl
/-- The block the right window shows at a point is that point's right tile. -/
theorem rhsTile_eq (c : Dev nD) (t : Fin cfg0.N) : iblk m c 1 t = rhsTile m c t := rfl

/-- The first point: output block and accumulator hold the step of the point's tiles over the zero block. -/
theorem at_first (c : Dev nD) (t : Fin cfg0.N) (h0 : t.val % 16 = 0) :
    outsAt0 m c t.val t.isLt
      = (k0_pay2 (lhsTile m c t) (rhsTile m c t) k0_pay1, k0_pay2 (lhsTile m c t) (rhsTile m c t) k0_pay1) := by
  rw [outsAt0_A m c t h0, lhsTile_eq, rhsTile_eq, out_first, acc_first]

/-- A later point: output block and accumulator hold the step of the point's tiles over the accumulator the point
    before left. -/
theorem at_later (c : Dev nD) (t : Fin cfg0.N) (h0 : ¬t.val % 16 = 0) :
    outsAt0 m c t.val t.isLt
      = (k0_pay2 (lhsTile m c t) (rhsTile m c t) (outsAt0 m c (t.val - 1) (Nat.lt_of_le_of_lt (Nat.sub_le _ _) t.isLt)).2,
         k0_pay2 (lhsTile m c t) (rhsTile m c t) (outsAt0 m c (t.val - 1) (Nat.lt_of_le_of_lt (Nat.sub_le _ _) t.isLt)).2) := by
  rw [outsAt0_B m c t h0, lhsTile_eq, rhsTile_eq, out_later, acc_later]

/-- After point `n` the output block and the carried accumulator both hold `acc n`. -/
theorem outsAt_eq (c : Dev nD) : ∀ (n : ℕ) (h : n < cfg0.N), outsAt0 m c n h = (acc m c n h, acc m c n h)
  | 0, h => by
    rw [acc_zero]
    exact at_first m c ⟨0, h⟩ rfl
  | n + 1, h => by
    have hN : cfg0.N = 16 := N_0
    have hB : ¬(⟨n + 1, h⟩ : Fin cfg0.N).val % 16 = 0 := by dsimp only; omega
    rw [acc_succ, ← show (outsAt0 m c n (Nat.lt_of_succ_lt h)).2 = acc m c n (Nat.lt_of_succ_lt h) from
      congrArg Prod.snd (outsAt_eq c n (Nat.lt_of_succ_lt h))]
    exact at_later m c ⟨n + 1, h⟩ hB

end Cert.KernelIdeal.Chain

end
-- ==== Proof.AccSum.lean ====
/-
  The accumulator at one entry, over the extended reals.

  Each point adds its tile product to the accumulator, and the first point starts from the zero block. So after
  point `n`, entry (p, q) of the accumulator is the sum over the points s = 0 … n of the tile sums
  ∑ₖ l_s(p, k) · r_s(q, k) — an ordered chain of additions starting from 0, which is that finite sum because
  addition of extended reals is a commutative monoid operation with unit 0 (no entry need be finite).
-/
import proofs.«161908_j4904852652371_1_alg».proof.Proof.TileDot
import proofs.«161908_j4904852652371_1_alg».proof.Proof.Chain

noncomputable section

open Idealize.ShloMosaic Idealize.ShloMosaic.TcCoe Idealize.SL.Sem Idealize.ShloMosaic.ValueIdx

namespace Cert.KernelIdeal.AccSum

open Cert.KernelIdeal Cert.KernelIdeal.Gen Cert.KernelIdeal.TileDot Cert.KernelIdeal.Chain

variable {N : ℕ} (l : (n : ℕ) → n < N → Vec Ideal S64x4096 .f32) (r : (n : ℕ) → n < N → Vec Ideal S256x4096 .f32)

/-- Point `s`'s contribution to entry (p, q): the sum over k of l_s(p, k) · r_s(q, k). -/
def tileSum (p : Fin 64) (q : Fin 256) (s : ℕ) (hs : s < N) : EReal :=
  ∑ k : Fin 4096, l s hs (ix2 p k) * r s hs (ix2 q k)

/-- After point `n`, entry (p, q) of the accumulator is the sum of the contributions of the points 0 … n. -/
theorem accOf_apply : ∀ (n : ℕ) (h : n < N) (p : Fin 64) (q : Fin 256),
    accOf (F := Ideal) l r n h (ix2 p q)
      = ∑ s : Fin (n + 1), tileSum l r p q s.val (Nat.lt_of_lt_of_le s.isLt (Nat.succ_le_of_lt h))
  | 0, h, p, q => by
    rw [accOf_zero, step_apply, zero_apply, zero_add, Fin.sum_univ_one]
    rfl
  | n + 1, h, p, q => by
    rw [accOf_succ, step_apply, accOf_apply n (Nat.lt_of_succ_lt h) p q]
    exact (Fin.sum_univ_castSucc
      (fun s : Fin (n + 2) => tileSum l r p q s.val (Nat.lt_of_lt_of_le s.isLt (Nat.succ_le_of_lt h)))).symm

end Cert.KernelIdeal.AccSum

end
-- ==== Proof.Tiles.lean ====
/-
  The tiles the two input windows show at a grid point.

  The left operand [64,65536] is cut along its second axis into sixteen [64,4096] tiles and the right operand
  [256,65536] into sixteen [256,4096] tiles; at point `t` both windows show tile `t`. So entry (p, k) of the left
  window's block at point `t` is the operand's entry (p, 4096·t + k), and entry (q, k) of the right window's block is
  the right operand's entry (q, 4096·t + k) — the operands as the region finds them.
-/
import proofs.«161908_j4904852652371_1_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Tiles

open Cert.KernelIdeal Cert.KernelIdeal.Gen

variable {F : FTy → Type} [FloatOps F]
variable (m : (ℓ : Loc nD τ sig) → Buf (Elt F) ℓ)

/-- Column `k` of tile `t` is column `4096·t + k` of the whole operand. -/
abbrev col (t : Fin 16) (k : Fin 4096) : Fin 65536 := ⟨4096 * t.val + k.val, by have := t.isLt; have := k.isLt; omega⟩

/-- The left window's block index at point `t` is (0, t). -/
theorem lhs_index : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- The right window's block index at point `t` is (0, t). -/
theorem rhs_index : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

/-- Entry (p, k) of the left window's block at point `t` is the left operand at (p, 4096·t + k). -/
theorem lhs_apply (c : Dev nD) (t : Fin cfg0.N) (ht : t.val < 16) (p : Fin 64) (k : Fin 4096) :
    (iblk m c 0 t : Vec F S64x4096 .f32) (ix2 p k) = (V m c main_v18 : S64x65536.Idx → Elt F .f32) (ix2 p (col ⟨t.val, ht⟩ k)) := by
  unfold iblk
  rw [View.read_apply]
  refine congrArg (V m c main_v18 : S64x65536.Idx → Elt F .f32) (funext fun a => Fin.ext ?_)
  match a with
  | ⟨0, _⟩ => show win0_0.index t 0 * 64 + 1 * p.val = p.val; rw [(lhs_index t).1]; omega
  | ⟨1, _⟩ => show win0_0.index t 1 * 4096 + 1 * k.val = 4096 * t.val + k.val; rw [(lhs_index t).2]; omega

/-- Entry (q, k) of the right window's block at point `t` is the right operand at (q, 4096·t + k). -/
theorem rhs_apply (c : Dev nD) (t : Fin cfg0.N) (ht : t.val < 16) (q : Fin 256) (k : Fin 4096) :
    (iblk m c 1 t : Vec F S256x4096 .f32) (ix2 q k) = (V m c main_arg1 : S256x65536.Idx → Elt F .f32) (ix2 q (col ⟨t.val, ht⟩ k)) := by
  unfold iblk
  rw [View.read_apply]
  refine congrArg (V m c main_arg1 : S256x65536.Idx → Elt F .f32) (funext fun a => Fin.ext ?_)
  match a with
  | ⟨0, _⟩ => show win0_1.index t 0 * 256 + 1 * q.val = q.val; rw [(rhs_index t).1]; omega
  | ⟨1, _⟩ => show win0_1.index t 1 * 4096 + 1 * k.val = 4096 * t.val + k.val; rw [(rhs_index t).2]; omega

end Cert.KernelIdeal.Tiles

end
-- ==== Proof.LibBlockSum.lean ====
/-
  A sum over `Fin (m * n)` cut into `m` consecutive blocks of `n` terms: the sum of the block sums is the whole
  sum, in any commutative additive monoid (in particular the extended reals, where no finiteness is needed:
  only associativity and commutativity of `+` are used).
-/
import Mathlib.Algebra.BigOperators.Fin
import Mathlib.Logic.Equiv.Fin.Basic

namespace Cert.BlockSum

open Finset

/-- The sum of `g` over `Fin (m * n)` is the sum over the `m` blocks of the sums over the `n` entries of a block,
    entry `k` of block `t` being `k + n * t`. -/
theorem sum_blocks {M : Type*} [AddCommMonoid M] (m n : ℕ) (g : Fin (m * n) → M) :
    ∑ t : Fin m, ∑ k : Fin n, g (finProdFinEquiv (t, k)) = ∑ j : Fin (m * n), g j := by
  rw [← Equiv.sum_comp finProdFinEquiv g]
  exact (Fintype.sum_prod_type' (fun t k => g (finProdFinEquiv (t, k)))).symm

/-- Sixteen tiles of 4096: a sum over 65536 terms is the sum over the tiles t of the sums over the tile's entries k,
    entry k of tile t being term 4096·t + k. -/
theorem sum_tiles {M : Type*} [AddCommMonoid M] (g : Fin 65536 → M) :
    ∑ t : Fin 16, ∑ k : Fin 4096, g ⟨4096 * t.val + k.val, by have := t.isLt; have := k.isLt; omega⟩
      = ∑ j : Fin 65536, g j :=
  (Finset.sum_congr rfl fun t _ => Finset.sum_congr rfl fun k _ => congrArg g (Fin.ext (by
    show 4096 * t.val + k.val = k.val + 4096 * t.val; omega))).trans (sum_blocks 16 4096 g)

end Cert.BlockSum
-- ==== Proof.KernelEntry.lean ====
/-
  What the accumulator holds after the last point: the whole contraction.

  After the sixteenth point, entry (p, q) of the accumulator is the sum over the tiles t of the tile sums
  ∑ₖ A(p, 4096·t + k) · W(q, 4096·t + k), where A is the left operand and W the right operand as the region finds
  them. Cutting a sum over 65536 terms into sixteen consecutive tiles does not change it, so the entry is
  ∑ⱼ A(p, j) · W(q, j): the product of A with the transpose of W.
-/
import proofs.«161908_j4904852652371_1_alg».proof.Proof.AccSum
import proofs.«161908_j4904852652371_1_alg».proof.Proof.Tiles
import proofs.«161908_j4904852652371_1_alg».proof.Proof.LibBlockSum

noncomputable section

open Idealize.ShloMosaic Idealize.ShloMosaic.TcCoe Idealize.SL.Sem Idealize.ShloMosaic.ValueIdx

namespace Cert.KernelIdeal.KernelEntry

open Cert.KernelIdeal Cert.KernelIdeal.Gen Cert.KernelIdeal.Chain Cert.KernelIdeal.AccSum

/-- The product of a [64,65536] array with the transpose of a [256,65536] array, entry by entry. -/
def contraction (A : S64x65536.Idx → EReal) (W : S256x65536.Idx → EReal) : S64x256.Idx → EReal :=
  fun i => ∑ j : Fin 65536, A (ix2 (i 0) j) * W (ix2 (i 1) j)

/-- Over any arrays A and W and any sixteen pairs of tiles that are the consecutive column tiles of A and W, the
    accumulator after the last point is the whole contraction of A with W. -/
theorem contraction_of_tiles {N : ℕ} (A : S64x65536.Idx → EReal) (W : S256x65536.Idx → EReal)
    (l : (n : ℕ) → n < N → Vec Ideal S64x4096 .f32) (r : (n : ℕ) → n < N → Vec Ideal S256x4096 .f32) (h : 15 < N)
    (hl : ∀ (s : Fin 16) (hs : s.val < N) (p : Fin 64) (k : Fin 4096), l s.val hs (ix2 p k) = A (ix2 p (Tiles.col s k)))
    (hr : ∀ (s : Fin 16) (hs : s.val < N) (q : Fin 256) (k : Fin 4096), r s.val hs (ix2 q k) = W (ix2 q (Tiles.col s k))) :
    accOf (F := Ideal) l r 15 h = contraction A W := by
  funext i
  obtain ⟨p, q, rfl⟩ : ∃ (p : Fin 64) (q : Fin 256), i = ix2 p q := ⟨i 0, i 1, eq_ix2 i⟩
  rw [accOf_apply]
  refine Eq.trans ?_ (Cert.BlockSum.sum_tiles (fun j : Fin 65536 => A (ix2 p j) * W (ix2 q j)))
  refine Finset.sum_congr rfl fun s _ => ?_
  unfold tileSum
  refine Finset.sum_congr rfl fun k _ => ?_
  rw [hl s _ p k, hr s _ q k]

variable (m : (ℓ : Loc nD τ sig) → Buf (Elt Ideal) ℓ)

/-- The grid has sixteen points; the last is point 15. -/
theorem last_lt : 15 < cfg0.N := by rw [show cfg0.N = 16 from N_0]; decide

/-- After the last point the accumulator is the whole contraction of the two operands the region finds. -/
theorem acc_last (c : Dev nD) :
    acc m c 15 last_lt = contraction (V m c main_v18) (V m c main_arg1) :=
  contraction_of_tiles (V m c main_v18) (V m c main_arg1) _ _ last_lt
    (fun s hs p k => Tiles.lhs_apply m c ⟨s.val, hs⟩ s.isLt p k)
    (fun s hs q k => Tiles.rhs_apply m c ⟨s.val, hs⟩ s.isLt q k)

end Cert.KernelIdeal.KernelEntry

end
-- ==== Proof.KernelValue.lean ====
/-
  The kernel's result.

  The output window's block index never moves, so the output array is written back once, after the last point, and
  its one block is the whole [64,256] array: the array ends holding the accumulator after the last point, which is
  the contraction of the left operand with the right operand along their 65536-long axis. The three host operations
  after the region add the bias, broadcast along the rows. So the result buffer ends at

      contraction A W + (b broadcast to [64,256]),

  with A the left operand the region finds, W the second argument and b the third, and the six arguments end
  unchanged.
-/
import proofs.«161908_j4904852652371_1_alg».proof.Proof.KernelEntry
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Chain Cert.KernelIdeal.KernelEntry

variable (m : (ℓ : Loc nD τ sig) → Buf (Elt Ideal) ℓ) (ρ : Dev nD → PrngReg)

/-- The accumulator after the last point, as contents of the output array (its one block is the array). -/
abbrev product (c : Dev nD) : Buf (Elt Ideal) ((c : Thread nD τ).loc main_v19) := acc m c 15 last_lt

/-- The one write-back, at the last point, writes the accumulator: block (0, 0) of the [64,256] array, read through
    zero offsets, is the array. -/
theorem flushed_eq (c : Dev nD) (t : Fin cfg0.N) (hf : (cfg0.win 2).flush t = true) :
    (dats m 0 c).flushed 2 t = ((cfg0.win 2).blk t).view.read (Elt Ideal) (product m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, outsAt_eq]
  have hz' : (fun a => win0_2.index t0_15 a * main_v19.ty.shape.size a) = fun _ => 0 :=
    funext fun a => by fin_cases a <;> decide
  exact (Memref.read_access_unit_zero (Elt Ideal) main_v19 hz' (fun a => by rw [congrFun hz' a]; simp) (product m c)).symm

/-- So the output array ends holding the accumulator after the last point: that point's block covers it. -/
theorem final_out (c : Dev nD) : (dats m 0 c).arrAt 2 cfg0.N = product m c :=
  (dats m 0 c).arrAt_eq_of_cover 2 (product m c) (flushed_eq m c) fun i =>
    ⟨t0_15, (flush0_2 t0_15).mpr rfl, by
      show i ∈ ((View.whole main_v19).slice (win0_2.rect t0_15)).set
      rw [View.set_slice_whole, Rect.mem_set_unit]
      intro a
      have h0 : (i 0 : Nat) < 64 := (i 0).isLt
      have h1 : (i 1 : Nat) < 256 := (i 1).isLt
      match a with
      | ⟨0, _⟩ =>
        show win0_2.index t0_15 0 * win0_2.size 0 ≤ (i 0 : Nat)
          ∧ (i 0 : Nat) < win0_2.index t0_15 0 * win0_2.size 0 + win0_2.xsize (grid0.coords t0_15) 0
        rw [show win0_2.index t0_15 0 * win0_2.size 0 = 0 from by decide +kernel,
          show win0_2.xsize (grid0.coords t0_15) 0 = 64 from by decide +kernel]; omega
      | ⟨1, _⟩ =>
        show win0_2.index t0_15 1 * win0_2.size 1 ≤ (i 1 : Nat)
          ∧ (i 1 : Nat) < win0_2.index t0_15 1 * win0_2.size 1 + win0_2.xsize (grid0.coords t0_15) 1
        rw [show win0_2.index t0_15 1 * win0_2.size 1 = 0 from by decide +kernel,
          show win0_2.xsize (grid0.coords t0_15) 1 = 256 from by decide +kernel]; omega⟩

/-- The bias added to every row of a [64,256] array: the host operations both programs end with. -/
def addBias (y : FVec Ideal S64x256 .f32) (b : FVec Ideal S256 .f32) : FVec Ideal S64x256 .f32 :=
  addf y (broadcastInDim S64x256 ![0, 1] bcast_S1x256_S64x256_0_1 (broadcastInDim S1x256 ![1] bcast_S256_S1x256_1 b))

/-- The kernel's result: the contraction of the two operands the region finds, plus the bias. -/
def result (c : Dev nD) : Buf (Elt Ideal) ((c : Thread nD τ).loc main_v22) :=
  addBias (contraction (V m c main_v18) (V m c main_arg1)) (m ((c : Thread nD τ).loc main_arg2))

/-- The bias add of two vectors known by name. -/
theorem addBias_of (Y y : FVec Ideal S64x256 .f32) (B b : FVec Ideal S256 .f32) (hy : Y = y) (hb : B = b) :
    addf Y (broadcastInDim S64x256 ![0, 1] bcast_S1x256_S64x256_0_1 (broadcastInDim S1x256 ![1] bcast_S256_S1x256_1 B))
      = addBias y b := by
  subst hy hb; rfl

/-- What the host operations after the region leave in the result buffer: they read the output array, which the
    region left at the accumulator after the last point, and the bias argument, which nothing has written. -/
theorem tail_eq (c : Dev nD) :
    Pipeline.afterTail₀ cfgs (dats m) 0 (V0 m) [hostOps1] c main_v22 = result m c := by
  unfold Pipeline.afterTail₀
  show StableHlo.after hostOps1 _ (Proc.devRef .tc main_v22) = _
  after_results
  exact addBias_of _ _ _ _
    ((Pipeline.withArrays_arr spec0 launch0.win.arr_inj c _ _ 2).trans ((final_out m c).trans (acc_last m c)))
    ((Pipeline.withArrays_of_ne _ c (V0 m c) _ main_arg2
      (by exact (by decide : ∀ w, Pipeline.arrRef spec0 w ≠ main_arg2))).trans (V_main_arg2 m c))

/-- The run, read: the result buffer at the contraction plus the bias, the arguments unchanged. -/
theorem run : θ_run defs (onTc (τ := τ) (main (F := Ideal))) ⟨m, fun _ => 0, ρ⟩ fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v22 (Pipeline.mem_restRefs_of main_v22 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelValue

end
-- ==== Proof.HostPrefix.lean ====
/-
  The left operand the region finds.

  Before the matmul region the kernel's host program reshapes x to [64,65536], gathers its columns at `cols`,
  scales them by `vals` and scatter-adds them at `rows` into a zero array. The reference's host program does the
  same operations with the same dimension numbers on the same arguments. So the [64,65536] array the region reads
  its left tiles from is the reference's scatter-add result, as one term of the arguments; the gather and the scatter
  are never opened.
-/
import proofs.«161908_j4904852652371_1_alg».proof.Proof.Gen.KernelIdeal.Frame
import proofs.«161908_j4904852652371_1_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.KernelIdeal.HostPrefix

open Cert.KernelIdeal Cert.KernelIdeal.Gen

variable {F : FTy → Type} [FloatOps F]
variable (m : (ℓ : Loc nD τ sig) → Buf (Elt F) ℓ)

set_option maxHeartbeats 2000000 in
/-- At the region's entry the left operand holds the reference's scatter-add of the arguments. -/
theorem lhs_entry (c : Dev nD) :
    V m c main_v18 = Cert.ReferenceIdeal.Read.val_main_v18 (F := F) (m ((c.tc : Thread nD τ).loc main_arg0))
      (m ((c.tc : Thread nD τ).loc main_arg3)) (m ((c.tc : Thread nD τ).loc main_arg4)) (m ((c.tc : Thread nD τ).loc main_arg5)) := by
  show StableHlo.after hostOps0 (fun b => m (c, b)) (Proc.devRef .tc main_v18) = _
  after_results
  rfl

end Cert.KernelIdeal.HostPrefix

end
-- ==== Proof.RefValue.lean ====
/-
  The reference's result, in the kernel's form.

  The reference multiplies its scatter-add result h1 [64,65536] by the transpose of W [256,65536] in ONE
  `dot_general` and adds the bias. Over the extended reals that product at entry (p, q) is the sum over j below
  65536 of h1(p, j) · Wᵀ(j, q), and Wᵀ(j, q) is W(q, j): the same contraction the kernel accumulates tile by tile.
  The bias is added by the same two broadcasts. So the reference's last stage is
  `addBias (contraction h1 W) b`, the kernel's result term over the same operands.
-/
import proofs.«161908_j4904852652371_1_alg».proof.Proof.KernelValue
import proofs.«161908_j4904852652371_1_alg».proof.Proof.Gen.ReferenceIdeal.Read

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read
open Cert.KernelIdeal.KernelEntry (contraction)
open Cert.KernelIdeal.KernelValue (addBias)

/-- The left operand of the product is read at (row of the output entry, j). -/
theorem lhs_index (i : S64x256.Idx) (k : Fin 65536) : lidx_main_v20 i k = ix2 (i 0) k :=
  funext fun a => by match a with | ⟨0, _⟩ => rfl | ⟨1, _⟩ => rfl

/-- The transposed right operand at (j, column of the output entry) is W at (that column, j). -/
theorem rhs_index (i : S64x256.Idx) (k : Fin 65536) : idx_main_v19 (ridx_main_v20 i k) = ix2 (i 1) k :=
  funext fun a => by match a with | ⟨0, _⟩ => rfl | ⟨1, _⟩ => rfl

/-- The reference's `dot_general` is the contraction of its scatter-add result with W. -/
theorem product_eq (x0 : (⟨S64x256x256, .f32⟩ : BufTy).Contents (Elt Ideal)) (x1 : (⟨S256x65536, .f32⟩ : BufTy).Contents (Elt Ideal))
    (x3 x4 : (⟨S1105888, .i32⟩ : BufTy).Contents (Elt Ideal)) (x5 : (⟨S1105888, .f32⟩ : BufTy).Contents (Elt Ideal)) :
    val_main_v20 (F := Ideal) x0 x1 x3 x4 x5 = contraction (val_main_v18 (F := Ideal) x0 x3 x4 x5) x1 := by
  funext i
  rw [val_main_v20_apply]
  unfold contraction
  refine Finset.sum_congr rfl fun k _ => ?_
  rw [val_main_v19_apply, lhs_index, rhs_index]
  rfl

/-- The reference's last stage is the contraction plus the bias. -/
theorem result_eq (x0 : (⟨S64x256x256, .f32⟩ : BufTy).Contents (Elt Ideal)) (x1 : (⟨S256x65536, .f32⟩ : BufTy).Contents (Elt Ideal))
    (x2 : (⟨S256, .f32⟩ : BufTy).Contents (Elt Ideal))
    (x3 x4 : (⟨S1105888, .i32⟩ : BufTy).Contents (Elt Ideal)) (x5 : (⟨S1105888, .f32⟩ : BufTy).Contents (Elt Ideal)) :
    val_main_v23 (F := Ideal) x0 x1 x2 x3 x4 x5 = addBias (contraction (val_main_v18 (F := Ideal) x0 x3 x4 x5) x1) x2 := by
  unfold val_main_v23
  rw [product_eq]
  rfl

end Cert.ReferenceIdeal.RefValue

end
-- ==== Proof.lean ====
/-
  A K-tiled matmul with a bias against one whole matmul with a bias.

  Both programs first build the same [64,65536] array h1 from x, rows, cols and vals (a reshape, a gather, a product
  and a scatter-add: the same host operations on the same arguments). The kernel then runs a grid of sixteen points:
  point t multiplies the t-th [64,4096] tile of h1 by the transpose of the t-th [256,4096] tile of W and adds the
  product into an accumulator that starts at zero; after the last point the accumulator is written out and the bias
  b is added to every row. The reference computes h1 · Wᵀ + b in one product.

  Over the extended reals a change of float format is the identity and every product is an exact sum, so the
  kernel's entry (p, q) is ((0 + S₀) + S₁) + … + S₁₅ + b(q) with Sₜ = ∑ₖ h1(p, 4096t + k) · W(q, 4096t + k), and
  the reference's is ∑ⱼ h1(p, j) · W(q, j) + b(q). These agree because addition of extended reals is associative and
  commutative with unit 0: a sum over 65536 terms is the sum of its sixteen consecutive tile sums. No finiteness of
  the inputs is used. The idealization rewrote nothing, so the kernel and its idealization are one text.
-/
import proofs.«161908_j4904852652371_1_alg».proof.Defs
import proofs.«161908_j4904852652371_1_alg».proof.Proof.Gen.Kernel
import proofs.«161908_j4904852652371_1_alg».proof.Proof.Gen.Kernel.Skeleton
import proofs.«161908_j4904852652371_1_alg».proof.Proof.Gen.Kernel.Launch
import proofs.«161908_j4904852652371_1_alg».proof.Proof.Gen.Kernel.Points
import proofs.«161908_j4904852652371_1_alg».proof.Proof.Gen.Kernel.Frame
import proofs.«161908_j4904852652371_1_alg».proof.Proof.Gen.KernelIdeal
import proofs.«161908_j4904852652371_1_alg».proof.Proof.Gen.KernelIdeal.Skeleton
import proofs.«161908_j4904852652371_1_alg».proof.Proof.Gen.KernelIdeal.Launch
import proofs.«161908_j4904852652371_1_alg».proof.Proof.Gen.KernelIdeal.Points
import proofs.«161908_j4904852652371_1_alg».proof.Proof.Gen.KernelIdeal.Frame
import proofs.«161908_j4904852652371_1_alg».proof.Proof.Gen.ReferenceIdeal
import proofs.«161908_j4904852652371_1_alg».proof.Proof.Gen.Pre_finite_inputs
import proofs.«161908_j4904852652371_1_alg».proof.Proof.Gen.ReferenceIdeal.Run
import proofs.«161908_j4904852652371_1_alg».proof.Proof.Gen.ReferenceIdeal.Read
import Idealize.ShloMosaic.Adequacy
import Idealize.ShloMosaic.Init

import proofs.«161908_j4904852652371_1_alg».proof.Proof.KernelValue
import proofs.«161908_j4904852652371_1_alg».proof.Proof.HostPrefix
import proofs.«161908_j4904852652371_1_alg».proof.Proof.RefValue

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel's result over the arguments alone: the left operand the region finds is the scatter-add result h1 of
    the arguments, the right operand is W as launched. -/
theorem kernel_result (m : (ℓ : Loc Cert.KernelIdeal.nD Cert.KernelIdeal.τ Cert.KernelIdeal.sig) → Buf (Elt Ideal) ℓ)
    (c : Dev Cert.KernelIdeal.nD) :
    Cert.KernelIdeal.KernelValue.result m c
      = Cert.KernelIdeal.KernelValue.addBias
          (Cert.KernelIdeal.KernelEntry.contraction
            (Cert.ReferenceIdeal.Read.val_main_v18 (F := Ideal)
              (m ((c.tc : Thread Cert.KernelIdeal.nD Cert.KernelIdeal.τ).loc Cert.KernelIdeal.main_arg0))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5)))
            (m ((c.tc : Thread Cert.KernelIdeal.nD Cert.KernelIdeal.τ).loc Cert.KernelIdeal.main_arg1)))
          (m ((c.tc : Thread Cert.KernelIdeal.nD Cert.KernelIdeal.τ).loc Cert.KernelIdeal.main_arg2)) := by
  unfold Cert.KernelIdeal.KernelValue.result
  rw [Cert.KernelIdeal.HostPrefix.lhs_entry m c, Cert.KernelIdeal.Gen.V_main_arg1 m c]

/-- Both results are the contraction of h1 with W along the 65536-long axis, plus the bias: the kernel's by
    accumulating sixteen tile products, the reference's by one product, over arguments that agree. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  refine (Cert.ReferenceIdeal.Read.val_main_v23_eq _ _ _ _ _ _).trans ?_
  rw [Cert.ReferenceIdeal.RefValue.result_eq, e0, e1, e2, e3, e4, e5]
  exact (kernel_result m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
